-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S2x1000000 : Shape := ⟨2, ![2, 1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : IVec S2x1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x64 : Shape := ⟨2, ![100000, 64]⟩
abbrev S64x64 : Shape := ⟨2, ![64, 64]⟩
abbrev S64 : Shape := ⟨1, ![64]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S10000x64 : Shape := ⟨2, ![10000, 64]⟩
abbrev S1100000x64 : Shape := ⟨2, ![1100000, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x1000000, .i32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x64, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x64, .f32⟩
  | .hbm, ⟨58, _⟩ => ⟨S1100000x1, .f32⟩
  | .hbm, ⟨59, _⟩ => ⟨S1100000x64, .f32⟩
  | .hbm, ⟨60, _⟩ => ⟨S1100000x64, .f32⟩
  | .hbm, ⟨61, _⟩ => ⟨S_, .f32⟩
  | .hbm, ⟨62, _⟩ => ⟨S100000x64, .f32⟩
  | .hbm, ⟨63, _⟩ => ⟨S1100000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1100000, .i32⟩
  | .hbm, ⟨70, _⟩ => ⟨S1100000, .i1⟩
  | .hbm, ⟨71, _⟩ => ⟨S_, .i32⟩
  | .hbm, ⟨72, _⟩ => ⟨S1100000, .i32⟩
  | .hbm, ⟨73, _⟩ => ⟨S1100000, .i32⟩
  | .hbm, ⟨74, _⟩ => ⟨S1100000, .i32⟩
  | .hbm, ⟨75, _⟩ => ⟨S1100000x1, .i32⟩
  | .hbm, ⟨76, _⟩ => ⟨S1100000x64, .f32⟩
  | .hbm, ⟨77, _⟩ => ⟨S1100000x1, .f32⟩
  | .hbm, ⟨78, _⟩ => ⟨S1100000x64, .f32⟩
  | .hbm, ⟨79, _⟩ => ⟨S1100000x64, .f32⟩
  | .hbm, ⟨80, _⟩ => ⟨S_, .f32⟩
  | .hbm, ⟨81, _⟩ => ⟨S100000x64, .f32⟩
  | .hbm, ⟨82, _⟩ => ⟨S1100000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1100000, .i32⟩
  | .hbm, ⟨89, _⟩ => ⟨S1100000, .i1⟩
  | .hbm, ⟨90, _⟩ => ⟨S_, .i32⟩
  | .hbm, ⟨91, _⟩ => ⟨S1100000, .i32⟩
  | .hbm, ⟨92, _⟩ => ⟨S1100000, .i32⟩
  | .hbm, ⟨93, _⟩ => ⟨S1100000, .i32⟩
  | .hbm, ⟨94, _⟩ => ⟨S1100000x1, .i32⟩
  | .hbm, ⟨95, _⟩ => ⟨S1100000x64, .f32⟩
  | .hbm, ⟨96, _⟩ => ⟨S1100000x1, .f32⟩
  | .hbm, ⟨97, _⟩ => ⟨S1100000x64, .f32⟩
  | .hbm, ⟨98, _⟩ => ⟨S1100000x64, .f32⟩
  | .hbm, ⟨99, _⟩ => ⟨S_, .f32⟩
  | .hbm, ⟨100, _⟩ => ⟨S100000x64, .f32⟩
  | .hbm, ⟨101, _⟩ => ⟨S1100000x1, .i32⟩
  | .hbm, ⟨102, _⟩ => ⟨S100000x64, .f32⟩
  | .hbm, ⟨103, _⟩ => ⟨S1x64, .f32⟩
  | .hbm, ⟨104, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x64_S64x64_S10000x64_1_0_0_1_n_n_wf : DotDims.WF S10000x64 S64x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x1000000, .i32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x64, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x64, .f32⟩
  | .hbm, ⟨58, _⟩ => ⟨S1100000x1, .f32⟩
  | .hbm, ⟨59, _⟩ => ⟨S1100000x64, .f32⟩
  | .hbm, ⟨60, _⟩ => ⟨S1100000x64, .f32⟩
  | .hbm, ⟨61, _⟩ => ⟨S_, .f32⟩
  | .hbm, ⟨62, _⟩ => ⟨S100000x64, .f32⟩
  | .hbm, ⟨63, _⟩ => ⟨S1100000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1100000, .i32⟩
  | .hbm, ⟨74, _⟩ => ⟨S1100000, .i1⟩
  | .hbm, ⟨75, _⟩ => ⟨S_, .i32⟩
  | .hbm, ⟨76, _⟩ => ⟨S1100000, .i32⟩
  | .hbm, ⟨77, _⟩ => ⟨S1100000, .i32⟩
  | .hbm, ⟨78, _⟩ => ⟨S1100000, .i32⟩
  | .hbm, ⟨79, _⟩ => ⟨S1100000x1, .i32⟩
  | .hbm, ⟨80, _⟩ => ⟨S1100000x64, .f32⟩
  | .hbm, ⟨81, _⟩ => ⟨S1100000x1, .f32⟩
  | .hbm, ⟨82, _⟩ => ⟨S1100000x64, .f32⟩
  | .hbm, ⟨83, _⟩ => ⟨S1100000x64, .f32⟩
  | .hbm, ⟨84, _⟩ => ⟨S_, .f32⟩
  | .hbm, ⟨85, _⟩ => ⟨S100000x64, .f32⟩
  | .hbm, ⟨86, _⟩ => ⟨S1100000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .i32⟩
  | .hbm, ⟨96, _⟩ => ⟨S1100000, .i32⟩
  | .hbm, ⟨97, _⟩ => ⟨S1100000, .i1⟩
  | .hbm, ⟨98, _⟩ => ⟨S_, .i32⟩
  | .hbm, ⟨99, _⟩ => ⟨S1100000, .i32⟩
  | .hbm, ⟨100, _⟩ => ⟨S1100000, .i32⟩
  | .hbm, ⟨101, _⟩ => ⟨S1100000, .i32⟩
  | .hbm, ⟨102, _⟩ => ⟨S1100000x1, .i32⟩
  | .hbm, ⟨103, _⟩ => ⟨S1100000x64, .f32⟩
  | .hbm, ⟨104, _⟩ => ⟨S1100000x1, .f32⟩
  | .hbm, ⟨105, _⟩ => ⟨S1100000x64, .f32⟩
  | .hbm, ⟨106, _⟩ => ⟨S1100000x64, .f32⟩
  | .hbm, ⟨107, _⟩ => ⟨S_, .f32⟩
  | .hbm, ⟨108, _⟩ => ⟨S100000x64, .f32⟩
  | .hbm, ⟨109, _⟩ => ⟨S1100000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | .hbm, ⟨114, _⟩ => ⟨S_, .f32⟩
  | .hbm, ⟨115, _⟩ => ⟨S100000x64, .f32⟩
  | .hbm, ⟨116, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.KernelRun.lean ====
import proofs.«148743_j730144441189_1_alg».proof.Proof.Gen.KernelIdeal.Frame

/-!
# The kernel's run, with the result buffer read

The generated frame runs the program's twelve segments — the stretches of host operations and the six regions —
from the launch memory and reads the last thread state against the final memory. Here the same run is read at one
more buffer, the program's result: at the end it holds what the last boundary's contents (`Gen.W12`) hold there.
-/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault; the result buffer ends at the
    last boundary's contents and the eight argument arrays end as launched. -/
theorem run_result : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunValue

end
-- ==== Proof.Keeps.lean ====
import proofs.«148743_j730144441189_1_alg».proof.Proof.Gen.KernelIdeal.Frame

/-!
# Buffers that a stretch of the program leaves alone

The program's run is cut at thirteen boundaries (`Gen.W0` the launch memory, …, `Gen.W12` the end); between two
boundaries lies a stretch of host operations or one region. A buffer that no operation of a stretch writes, and that is
none of a region's three arrays, holds after it what it held before. Here, for the buffers the later stages read across
several boundaries — the edge list's two columns and the edges' normalisation, computed once before the first region, and
the weight and bias arguments —, those steps are chained.
-/

set_option maxRecDepth 16384

noncomputable section

namespace Cert.KernelIdeal.RunValue

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- A buffer keeps its contents over a stretch of host operations none of which writes it: the operations' result
    buffers are listed and each is told apart from the buffer by deciding the two references distinct. -/
macro "host_keeps" : tactic => `(tactic|
  (refine StableHlo.after_of_forall_not_mem _ _ (List.forall_iff_forall_mem.mp ?_)
   simp only [hostOps0, hostOps0_1, hostOps0_2, hostOps1, hostOps3, hostOps5, List.Forall, StableHlo.nullary_writes,
     StableHlo.unary_writes, StableHlo.binary_writes, StableHlo.ternary_writes, StableHlo.reshape_writes, Finset.mem_singleton]
   repeat' apply And.intro
   all_goals exact StableHlo.devRef_ne_of_ne (by decide)))

/-- Nothing between boundaries 7 and 10 writes `main_v3`. -/
theorem keep_v3_10_7 : W10 m ρ c (Proc.devRef .tc main_v3) = W7 m ρ c (Proc.devRef .tc main_v3) :=
  (W10_of_ne m ρ c main_v3 (by decide)).trans
    ((W9_of_ne m ρ c main_v3 (by decide)).trans
    ((by host_keeps : W8 m ρ c (Proc.devRef .tc main_v3) = W7 m ρ c (Proc.devRef .tc main_v3))))

/-- Nothing between boundaries 4 and 7 writes `main_v3`. -/
theorem keep_v3_7_4 : W7 m ρ c (Proc.devRef .tc main_v3) = W4 m ρ c (Proc.devRef .tc main_v3) :=
  (W7_of_ne m ρ c main_v3 (by decide)).trans
    ((W6_of_ne m ρ c main_v3 (by decide)).trans
    ((by host_keeps : W5 m ρ c (Proc.devRef .tc main_v3) = W4 m ρ c (Proc.devRef .tc main_v3))))

/-- Nothing between boundaries 3 and 4 writes `main_v3`. -/
theorem keep_v3_4_3 : W4 m ρ c (Proc.devRef .tc main_v3) = W3 m ρ c (Proc.devRef .tc main_v3) :=
  (W4_of_ne m ρ c main_v3 (by decide))

/-- Nothing between boundaries 7 and 10 writes `main_v6`. -/
theorem keep_v6_10_7 : W10 m ρ c (Proc.devRef .tc main_v6) = W7 m ρ c (Proc.devRef .tc main_v6) :=
  (W10_of_ne m ρ c main_v6 (by decide)).trans
    ((W9_of_ne m ρ c main_v6 (by decide)).trans
    ((by host_keeps : W8 m ρ c (Proc.devRef .tc main_v6) = W7 m ρ c (Proc.devRef .tc main_v6))))

/-- Nothing between boundaries 4 and 7 writes `main_v6`. -/
theorem keep_v6_7_4 : W7 m ρ c (Proc.devRef .tc main_v6) = W4 m ρ c (Proc.devRef .tc main_v6) :=
  (W7_of_ne m ρ c main_v6 (by decide)).trans
    ((W6_of_ne m ρ c main_v6 (by decide)).trans
    ((by host_keeps : W5 m ρ c (Proc.devRef .tc main_v6) = W4 m ρ c (Proc.devRef .tc main_v6))))

/-- Nothing between boundaries 3 and 4 writes `main_v6`. -/
theorem keep_v6_4_3 : W4 m ρ c (Proc.devRef .tc main_v6) = W3 m ρ c (Proc.devRef .tc main_v6) :=
  (W4_of_ne m ρ c main_v6 (by decide))

/-- Nothing between boundaries 7 and 10 writes `main_v29`. -/
theorem keep_v29_10_7 : W10 m ρ c (Proc.devRef .tc main_v29) = W7 m ρ c (Proc.devRef .tc main_v29) :=
  (W10_of_ne m ρ c main_v29 (by decide)).trans
    ((W9_of_ne m ρ c main_v29 (by decide)).trans
    ((by host_keeps : W8 m ρ c (Proc.devRef .tc main_v29) = W7 m ρ c (Proc.devRef .tc main_v29))))

/-- Nothing between boundaries 4 and 7 writes `main_v29`. -/
theorem keep_v29_7_4 : W7 m ρ c (Proc.devRef .tc main_v29) = W4 m ρ c (Proc.devRef .tc main_v29) :=
  (W7_of_ne m ρ c main_v29 (by decide)).trans
    ((W6_of_ne m ρ c main_v29 (by decide)).trans
    ((by host_keeps : W5 m ρ c (Proc.devRef .tc main_v29) = W4 m ρ c (Proc.devRef .tc main_v29))))

/-- Nothing between boundaries 3 and 4 writes `main_v29`. -/
theorem keep_v29_4_3 : W4 m ρ c (Proc.devRef .tc main_v29) = W3 m ρ c (Proc.devRef .tc main_v29) :=
  (W4_of_ne m ρ c main_v29 (by decide))

/-- Nothing up to boundary 10 writes `main_arg6`: it still holds the launch contents. -/
theorem keep_arg6_10_0 : W10 m ρ c (Proc.devRef .tc main_arg6) = m ((c.tc : Thread nD τ).loc main_arg6) :=
  ((W10_of_ne m ρ c main_arg6 (by decide)).trans
    ((W9_of_ne m ρ c main_arg6 (by decide)).trans
    ((by host_keeps : W8 m ρ c (Proc.devRef .tc main_arg6) = W7 m ρ c (Proc.devRef .tc main_arg6)).trans
    ((W7_of_ne m ρ c main_arg6 (by decide)).trans
    ((W6_of_ne m ρ c main_arg6 (by decide)).trans
    ((by host_keeps : W5 m ρ c (Proc.devRef .tc main_arg6) = W4 m ρ c (Proc.devRef .tc main_arg6)).trans
    ((W4_of_ne m ρ c main_arg6 (by decide)).trans
    ((by host_keeps : W3 m ρ c (Proc.devRef .tc main_arg6) = W2 m ρ c (Proc.devRef .tc main_arg6)).trans
    ((by host_keeps : W2 m ρ c (Proc.devRef .tc main_arg6) = W1 m ρ c (Proc.devRef .tc main_arg6)).trans
    ((by host_keeps : W1 m ρ c (Proc.devRef .tc main_arg6) = W0 m ρ c (Proc.devRef .tc main_arg6)))))))))))).trans rfl

/-- Nothing up to boundary 9 writes `main_arg5`: it still holds the launch contents. -/
theorem keep_arg5_9_0 : W9 m ρ c (Proc.devRef .tc main_arg5) = m ((c.tc : Thread nD τ).loc main_arg5) :=
  ((W9_of_ne m ρ c main_arg5 (by decide)).trans
    ((by host_keeps : W8 m ρ c (Proc.devRef .tc main_arg5) = W7 m ρ c (Proc.devRef .tc main_arg5)).trans
    ((W7_of_ne m ρ c main_arg5 (by decide)).trans
    ((W6_of_ne m ρ c main_arg5 (by decide)).trans
    ((by host_keeps : W5 m ρ c (Proc.devRef .tc main_arg5) = W4 m ρ c (Proc.devRef .tc main_arg5)).trans
    ((W4_of_ne m ρ c main_arg5 (by decide)).trans
    ((by host_keeps : W3 m ρ c (Proc.devRef .tc main_arg5) = W2 m ρ c (Proc.devRef .tc main_arg5)).trans
    ((by host_keeps : W2 m ρ c (Proc.devRef .tc main_arg5) = W1 m ρ c (Proc.devRef .tc main_arg5)).trans
    ((by host_keeps : W1 m ρ c (Proc.devRef .tc main_arg5) = W0 m ρ c (Proc.devRef .tc main_arg5))))))))))).trans rfl

/-- Nothing up to boundary 7 writes `main_arg4`: it still holds the launch contents. -/
theorem keep_arg4_7_0 : W7 m ρ c (Proc.devRef .tc main_arg4) = m ((c.tc : Thread nD τ).loc main_arg4) :=
  ((W7_of_ne m ρ c main_arg4 (by decide)).trans
    ((W6_of_ne m ρ c main_arg4 (by decide)).trans
    ((by host_keeps : W5 m ρ c (Proc.devRef .tc main_arg4) = W4 m ρ c (Proc.devRef .tc main_arg4)).trans
    ((W4_of_ne m ρ c main_arg4 (by decide)).trans
    ((by host_keeps : W3 m ρ c (Proc.devRef .tc main_arg4) = W2 m ρ c (Proc.devRef .tc main_arg4)).trans
    ((by host_keeps : W2 m ρ c (Proc.devRef .tc main_arg4) = W1 m ρ c (Proc.devRef .tc main_arg4)).trans
    ((by host_keeps : W1 m ρ c (Proc.devRef .tc main_arg4) = W0 m ρ c (Proc.devRef .tc main_arg4))))))))).trans rfl

/-- Nothing up to boundary 6 writes `main_arg3`: it still holds the launch contents. -/
theorem keep_arg3_6_0 : W6 m ρ c (Proc.devRef .tc main_arg3) = m ((c.tc : Thread nD τ).loc main_arg3) :=
  ((W6_of_ne m ρ c main_arg3 (by decide)).trans
    ((by host_keeps : W5 m ρ c (Proc.devRef .tc main_arg3) = W4 m ρ c (Proc.devRef .tc main_arg3)).trans
    ((W4_of_ne m ρ c main_arg3 (by decide)).trans
    ((by host_keeps : W3 m ρ c (Proc.devRef .tc main_arg3) = W2 m ρ c (Proc.devRef .tc main_arg3)).trans
    ((by host_keeps : W2 m ρ c (Proc.devRef .tc main_arg3) = W1 m ρ c (Proc.devRef .tc main_arg3)).trans
    ((by host_keeps : W1 m ρ c (Proc.devRef .tc main_arg3) = W0 m ρ c (Proc.devRef .tc main_arg3)))))))).trans rfl

/-- Nothing up to boundary 4 writes `main_arg2`: it still holds the launch contents. -/
theorem keep_arg2_4_0 : W4 m ρ c (Proc.devRef .tc main_arg2) = m ((c.tc : Thread nD τ).loc main_arg2) :=
  ((W4_of_ne m ρ c main_arg2 (by decide)).trans
    ((by host_keeps : W3 m ρ c (Proc.devRef .tc main_arg2) = W2 m ρ c (Proc.devRef .tc main_arg2)).trans
    ((by host_keeps : W2 m ρ c (Proc.devRef .tc main_arg2) = W1 m ρ c (Proc.devRef .tc main_arg2)).trans
    ((by host_keeps : W1 m ρ c (Proc.devRef .tc main_arg2) = W0 m ρ c (Proc.devRef .tc main_arg2)))))).trans rfl

/-- Nothing up to boundary 3 writes `main_arg0`: it still holds the launch contents. -/
theorem keep_arg0_3_0 : W3 m ρ c (Proc.devRef .tc main_arg0) = m ((c.tc : Thread nD τ).loc main_arg0) :=
  ((by host_keeps : W3 m ρ c (Proc.devRef .tc main_arg0) = W2 m ρ c (Proc.devRef .tc main_arg0)).trans
    ((by host_keeps : W2 m ρ c (Proc.devRef .tc main_arg0) = W1 m ρ c (Proc.devRef .tc main_arg0)).trans
    ((by host_keeps : W1 m ρ c (Proc.devRef .tc main_arg0) = W0 m ρ c (Proc.devRef .tc main_arg0))))).trans rfl

/-- Nothing up to boundary 3 writes `main_arg1`: it still holds the launch contents. -/
theorem keep_arg1_3_0 : W3 m ρ c (Proc.devRef .tc main_arg1) = m ((c.tc : Thread nD τ).loc main_arg1) :=
  ((by host_keeps : W3 m ρ c (Proc.devRef .tc main_arg1) = W2 m ρ c (Proc.devRef .tc main_arg1)).trans
    ((by host_keeps : W2 m ρ c (Proc.devRef .tc main_arg1) = W1 m ρ c (Proc.devRef .tc main_arg1)).trans
    ((by host_keeps : W1 m ρ c (Proc.devRef .tc main_arg1) = W0 m ρ c (Proc.devRef .tc main_arg1))))).trans rfl

end Cert.KernelIdeal.RunValue

end
-- ==== Proof.Spec.lean ====
import Idealize.ShloMosaic.PureOps.Ideal
import Idealize.ShloMosaic.Lib.ValueIdx

/-!
# One graph-convolution layer's two dense stages, index by index

Over the extended reals a layer of the network is: a rows-by-columns product of the node features with the
layer's weights; then, edge by edge, a gather of the product's rows, a scaling by the edge's normalisation and a
scatter-add onto the destination rows; then the bias added to every row and the positive part taken. The first and
the last stage are stated here as functions of whole arrays, entry by entry; the middle stage is the same host
operations in both programs and is never opened.
-/

noncomputable section

namespace Cert.Gcn

open Idealize.ShloMosaic Idealize.ShloMosaic.ValueIdx
open scoped BigOperators

/-- The product of the node features `x` (100000 rows of 64) with a 64-by-64 weight matrix: entry `(p, q)` is the
    sum over `k` of `x (p, k) · w (k, q)`. -/
def dense (x : (⟨2, ![100000, 64]⟩ : Shape).Idx → EReal) (w : (⟨2, ![64, 64]⟩ : Shape).Idx → EReal) :
    (⟨2, ![100000, 64]⟩ : Shape).Idx → EReal :=
  fun i => ∑ k : Fin 64, x (ix2 (i 0) k) * w (ix2 k (i 1))

/-- The bias row `b` (one row of 64) added to every row of `a`, then the larger of the sum and zero. -/
def biasRelu (a : (⟨2, ![100000, 64]⟩ : Shape).Idx → EReal) (b : (⟨2, ![1, 64]⟩ : Shape).Idx → EReal) :
    (⟨2, ![100000, 64]⟩ : Shape).Idx → EReal :=
  fun i => max (a i + b (ix2 0 (i 1))) (Ideal.ofBits .f32 0x00000000#32)

end Cert.Gcn

end
-- ==== Proof.Net.lean ====
import proofs.«148743_j730144441189_1_alg».proof.Proof.Gen.KernelIdeal
import proofs.«148743_j730144441189_1_alg».proof.Proof.Spec

/-!
# The network as one function of the argument arrays

Both programs compute, over the extended reals, three graph-convolution layers over one edge list. The edge list is the
given 2-by-1000000 table with one self-loop per node appended; a node's degree is the number of edges ending in it; an
edge's normalisation is the product of `1/√degree` at its two ends (zero where the degree is not positive). One layer is
the dense map (`Cert.Gcn.dense`), the edge stage — gather the rows at the edges' sources, scale each by the edge's
normalisation, add them up at the edges' destinations — and the bias with the positive part (`Cert.Gcn.biasRelu`). The
edge stage is spelt with the host operations exactly as both programs apply them, and is never opened.
-/

noncomputable section

namespace Cert.KernelIdeal.Net

open Cert.KernelIdeal Cert.KernelIdeal.Facts₀ Idealize.ShloMosaic

/-- The edges' sources: row 0 of the table, then the nodes `0 … 99999` (the self-loops). -/
def srcOf (e : IVec S2x1000000 32) : IVec S1100000 32 :=
  concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0

/-- The edges' destinations: row 1 of the table, then the nodes `0 … 99999`. -/
def dstOf (e : IVec S2x1000000 32) : IVec S1100000 32 :=
  concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0

/-- Node numbers as a gather reads them: a negative number counts from the end (100000 is added to it). -/
def wrapIdx (s : IVec S1100000 32) : IVec S1100000x1 32 :=
  broadcastInDim S1100000x1 ![0] bcast_S1100000_S1100000x1_0 (select (cmpi .slt s (broadcastInDim S1100000 ![] bcast_S_S1100000 (constantI S_ 32 0#32))) (addi s (broadcastInDim S1100000 ![] bcast_S_S1100000 (constantI S_ 32 100000#32))) s)

/-- A node's degree: one added at the node for every edge that ends in it. -/
def degOf (d : IVec S1100000 32) : FVec Ideal S100000 .f32 :=
  Host.scatterAdd scatter_S100000_S1100000x1_S1100000_n_0_0_1 (broadcastInDim S100000 ![] bcast_S_S100000 (constant S_ .f32 0x00000000#32)) (broadcastInDim S1100000x1 ![0] bcast_S1100000_S1100000x1_0 d) (broadcastInDim S1100000 ![] bcast_S_S1100000 (constant S_ .f32 0x3F800000#32))

/-- `1/√degree` where the degree is positive, zero elsewhere. -/
def dinvOf (d : IVec S1100000 32) : FVec Ideal S100000 .f32 :=
  select (cmpf .ogt (degOf d) (broadcastInDim S100000 ![] bcast_S_S100000 (constant S_ .f32 0x00000000#32))) (Host.rsqrt (degOf d)) (broadcastInDim S100000 ![] bcast_S_S100000 (id (constant S_ .f32 0x00000000#32)))

/-- The product, edge by edge, of what a table `t` of the nodes holds at the edge's source and at its destination. -/
def normFrom (t : FVec Ideal S100000 .f32) (s d : IVec S1100000 32) : FVec Ideal S1100000 .f32 :=
  mulf (Host.gather gather_S100000_S1100000x1_S1100000_n_0_n_n_0_1_1 t (wrapIdx s)) (Host.gather gather_S100000_S1100000x1_S1100000_n_0_n_n_0_1_1 t (wrapIdx d))

/-- An edge's normalisation: `1/√degree` at its source times `1/√degree` at its destination. -/
def normOf (s d : IVec S1100000 32) : FVec Ideal S1100000 .f32 :=
  normFrom (dinvOf d) s d

/-- The edge stage: row `h (source)` scaled by the edge's normalisation, added up at the edge's destination. -/
def aggregate (s d : IVec S1100000 32) (n : FVec Ideal S1100000 .f32) (h : FVec Ideal S100000x64 .f32) : FVec Ideal S100000x64 .f32 :=
  Host.scatterAdd scatter_S100000x64_S1100000x1_S1100000x64_1_0_0_1 (broadcastInDim S100000x64 ![] bcast_S_S100000x64 (constant S_ .f32 0x00000000#32)) (broadcastInDim S1100000x1 ![0] bcast_S1100000_S1100000x1_0 d) (mulf (Host.gather gather_S100000x64_S1100000x1_S1100000x64_1_0_n_n_0_1_164 h (wrapIdx s)) (broadcastInDim S1100000x64 ![0, 1] bcast_S1100000x1_S1100000x64_0_1 (broadcastInDim S1100000x1 ![0] bcast_S1100000_S1100000x1_0 n)))

/-- One layer: the dense map, the edge stage, the bias and the positive part. -/
def layer (s d : IVec S1100000 32) (n : FVec Ideal S1100000 .f32) (h : FVec Ideal S100000x64 .f32) (w : FVec Ideal S64x64 .f32)
    (b : FVec Ideal S64 .f32) : FVec Ideal S100000x64 .f32 :=
  Cert.Gcn.biasRelu (aggregate s d n (Cert.Gcn.dense h w)) (shapeCast S1x64 b shapeCasts_S64_S1x64)

/-- The three layers over one edge list. -/
def net (x : FVec Ideal S100000x64 .f32) (w1 : FVec Ideal S64x64 .f32) (b1 : FVec Ideal S64 .f32) (w2 : FVec Ideal S64x64 .f32)
    (b2 : FVec Ideal S64 .f32) (w3 : FVec Ideal S64x64 .f32) (b3 : FVec Ideal S64 .f32) (e : IVec S2x1000000 32) : FVec Ideal S100000x64 .f32 :=
  layer (srcOf e) (dstOf e) (normOf (srcOf e) (dstOf e))
    (layer (srcOf e) (dstOf e) (normOf (srcOf e) (dstOf e))
      (layer (srcOf e) (dstOf e) (normOf (srcOf e) (dstOf e)) x w1 b1) w2 b2) w3 b3

end Cert.KernelIdeal.Net

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.RegionDense.lean ====
import proofs.«148743_j730144441189_1_alg».proof.Proof.Gen.KernelIdeal.Frame
import proofs.«148743_j730144441189_1_alg».proof.Proof.Spec
import proofs.«148743_j730144441189_1_alg».proof.Proof.LibPlainDot
import Idealize.ShloMosaic.Lib.Pipeline.Value
import Idealize.ShloMosaic.Lib.ValueIdx

/-!
# What each matrix-product region leaves in its output array

A product region walks the 100000 rows of its left operand in ten blocks of 10000 rows. At block `t` it multiplies
rows `10000·t … 10000·t + 9999` by the whole 64-by-64 right operand, starting from a zero accumulator, and writes the
10000-by-64 product back over the same rows of the output array. Entry `(p, q)` of a block's product depends on row
`p` of the block and column `q` of the right operand only, so it is entry `(10000·t + p, q)` of the product of the
whole arrays; the ten blocks cover every row, hence the output array ends holding the whole product, `Cert.Gcn.dense`.
The narrowing of both operands to the 16-bit format before the product is the identity on extended reals.
-/

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-buffer access, however they are spelt. -/
theorem zeroOffsets : (![0, 0] : Fin 2 → Nat) = fun _ => 0 := funext fun a => by fin_cases a <;> rfl

/-- The product of the whole arrays at an index whose coordinates are `r` and `q`: the sum over `k` of
    `x (r, k) · w (k, q)`. -/
theorem dense_apply (x : (⟨2, ![100000, 64]⟩ : Shape).Idx → EReal) (w : (⟨2, ![64, 64]⟩ : Shape).Idx → EReal)
    (i : (⟨2, ![100000, 64]⟩ : Shape).Idx) (r : Fin 100000) (q : Fin 64) (h0 : (i 0).val = r.val) (h1 : (i 1).val = q.val) :
    Cert.Gcn.dense x w i = ∑ k : Fin 64, x (ix2 r k) * w (ix2 k q) := by
  have e : i = ix2 r q := funext fun a => Fin.ext (by
    match a with
    | ⟨0, _⟩ => exact h0
    | ⟨1, _⟩ => exact h1)
  subst e
  rfl

/-! ## Region 0: `main_v30` is the product of `main_arg0` and `main_arg1` -/

/-- The block's payload at `(p, q)`: row `p` of the block against column `q` of the right operand (the narrowing of both operands change nothing). -/
theorem matmulEntry0 (x0 : Vec Ideal S10000x64 .f32) (x1 : Vec Ideal S64x64 .f32) (p : Fin 10000) (q : Fin 64) :
    k0_pay1 x0 x1 (ix2 p q) = ∑ k : Fin 64, (x0 (ix2 p k) : EReal) * (x1 (ix2 k q) : EReal) := by
  unfold k0_pay1
  exact Cert.LibPlainDot.matmul_zero_apply dot_S10000x64_S64x64_S10000x64_1_0_0_1_n_n ⟨rfl, rfl, rfl, rfl, rfl, rfl⟩ none
    (truncf .bf16 x0 bitsLt_bf16_f32) (truncf .bf16 x1 bitsLt_bf16_f32) p q

/-- The printed index maps, decided over the ten points: the row windows sit at block `(t, 0)`, the right operand's
    window at block `(0, 0)`. -/
theorem denseIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- There are ten points. -/
theorem densePoint0_lt (t : Fin cfg0.N) : t.val < 10 := by
  have h : t.val < cfg0.N := t.isLt
  have hN : cfg0.N = 10 := N_0
  omega

/-- The left operand's block at point `t` is rows `10000·t …` of its array. -/
theorem denseRows0 (c : Dev nD) (t : Fin cfg0.N) (p : Fin 10000) (k : Fin 64) :
    iblk0 V c 0 t (ix2 p k)
      = (V c main_arg0 : S100000x64.Idx → EReal) (ix2 ⟨t.val * 10000 + p.val, by have := densePoint0_lt t; have := p.isLt; omega⟩ k) := by
  obtain ⟨e0, e1, -, -, -, -⟩ := denseIndex0 t
  show (V c main_arg0 : S100000x64.Idx → EReal) (((cfg0.win 0).blk t).view.emb (ix2 p k)) = _
  refine congrArg (V c main_arg0 : S100000x64.Idx → EReal) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- The right operand's block at every point is its whole array. -/
theorem denseCols0 (c : Dev nD) (t : Fin cfg0.N) (k : Fin 64) (q : Fin 64) :
    iblk0 V c 1 t (ix2 k q) = (V c main_arg1 : S64x64.Idx → EReal) (ix2 k q) := by
  obtain ⟨-, -, e2, e3, -, -⟩ := denseIndex0 t
  show (V c main_arg1 : S64x64.Idx → EReal) (((cfg0.win 1).blk t).view.emb (ix2 k q)) = _
  refine congrArg (V c main_arg1 : S64x64.Idx → EReal) (funext fun a => Fin.ext ?_)
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- What point `t` writes back is block `t` of the product of the whole arrays. -/
theorem flushedDense0 (c : Dev nD) (t : Fin cfg0.N) :
    (dat0 (F := Ideal) V c).flushed 2 t
      = ((cfg0.win 2).blk t).view.read (Elt Ideal) (Cert.Gcn.dense (V c main_arg0) (V c main_arg1)) := by
  show (cfg0.win 2).cut (grid0.coords t) ((dat0 V c).after 2 t) = _
  rw [after0_2]
  unfold out0_2
  rw [View.canon_unit_zero zeroOffsets]
  simp only [View.ld_unit_zero (S := S10000x64) zeroOffsets, View.ld_unit_zero (S := S64x64) zeroOffsets]
  obtain ⟨-, -, -, -, e4, e5⟩ := denseIndex0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = Cert.Gcn.dense (V c main_arg0) (V c main_arg1) (((cfg0.win 2).blk t).view.emb (ix2 p q))
  refine (matmulEntry0 (iblk0 V c 0 t) (iblk0 V c 1 t) p q).trans ?_
  refine Eq.trans ?_ (dense_apply (V c main_arg0) (V c main_arg1) _
    ⟨t.val * 10000 + p.val, by have := densePoint0_lt t; have := p.isLt; omega⟩ q ?_ ?_).symm
  · exact Finset.sum_congr rfl fun k _ => by rw [denseRows0 V c t p k, denseCols0 V c t k q]
  · show win0_2.index t (0 : Fin 2) * 10000 + 1 * p.val = t.val * 10000 + p.val; rw [e4]; omega
  · show win0_2.index t (1 : Fin 2) * 64 + 1 * q.val = q.val; rw [e5]; omega

/-- An index of the output array is in point `t`'s block iff each coordinate is in the block's range on its axis. -/
theorem memDense0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row `r` of the output array is written back by point `r / 10000`: the ten blocks cover the array. -/
theorem coverDense0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, e4, e5⟩ := denseIndex0 t
  refine ⟨t, flush0_2 t, ?_⟩
  rw [memDense0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 64 ≤ (i 1).val ∧ (i 1).val < win0_2.index t (1 : Fin 2) * 64 + 64; rw [e5]; omega

/-- The output array after the region: the product of the two arrays the region reads, as it finds them. -/
theorem dense0 (c : Dev nD) : (dat0 (F := Ideal) V c).arrAt 2 cfg0.N = Cert.Gcn.dense (V c main_arg0) (V c main_arg1) :=
  (dat0 (F := Ideal) V c).arrAt_eq_of_cover 2 (Cert.Gcn.dense (V c main_arg0) (V c main_arg1))
    (fun t _ => flushedDense0 V c t) coverDense0

/-! ## Region 2: `main_v46` is the product of `main_v45` and `main_arg3` -/

/-- The block's payload at `(p, q)`: row `p` of the block against column `q` of the right operand (the same-shape cast
    of the block and the narrowing of both operands change nothing). -/
theorem matmulEntry2 (x0 : Vec Ideal S10000x64 .f32) (x1 : Vec Ideal S64x64 .f32) (p : Fin 10000) (q : Fin 64) :
    k2_pay1 x0 x1 (ix2 p q) = ∑ k : Fin 64, (x0 (ix2 p k) : EReal) * (x1 (ix2 k q) : EReal) := by
  unfold k2_pay1
  refine (Cert.LibPlainDot.matmul_zero_apply dot_S10000x64_S64x64_S10000x64_1_0_0_1_n_n ⟨rfl, rfl, rfl, rfl, rfl, rfl⟩ none
    (truncf .bf16 (shapeCast S10000x64 x0 shapeCasts_S10000x64_S10000x64) bitsLt_bf16_f32) (truncf .bf16 x1 bitsLt_bf16_f32) p q).trans ?_
  rw [shapeCast_self]
  rfl

/-- The printed index maps, decided over the ten points: the row windows sit at block `(t, 0)`, the right operand's
    window at block `(0, 0)`. -/
theorem denseIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- There are ten points. -/
theorem densePoint2_lt (t : Fin cfg2.N) : t.val < 10 := by
  have h : t.val < cfg2.N := t.isLt
  have hN : cfg2.N = 10 := N_2
  omega

/-- The left operand's block at point `t` is rows `10000·t …` of its array. -/
theorem denseRows2 (c : Dev nD) (t : Fin cfg2.N) (p : Fin 10000) (k : Fin 64) :
    iblk2 V c 0 t (ix2 p k)
      = (V c main_v45 : S100000x64.Idx → EReal) (ix2 ⟨t.val * 10000 + p.val, by have := densePoint2_lt t; have := p.isLt; omega⟩ k) := by
  obtain ⟨e0, e1, -, -, -, -⟩ := denseIndex2 t
  show (V c main_v45 : S100000x64.Idx → EReal) (((cfg2.win 0).blk t).view.emb (ix2 p k)) = _
  refine congrArg (V c main_v45 : S100000x64.Idx → EReal) (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 64 + 1 * k.val = k.val; rw [e1]; omega

/-- The right operand's block at every point is its whole array. -/
theorem denseCols2 (c : Dev nD) (t : Fin cfg2.N) (k : Fin 64) (q : Fin 64) :
    iblk2 V c 1 t (ix2 k q) = (V c main_arg3 : S64x64.Idx → EReal) (ix2 k q) := by
  obtain ⟨-, -, e2, e3, -, -⟩ := denseIndex2 t
  show (V c main_arg3 : S64x64.Idx → EReal) (((cfg2.win 1).blk t).view.emb (ix2 k q)) = _
  refine congrArg (V c main_arg3 : S64x64.Idx → EReal) (funext fun a => Fin.ext ?_)
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- What point `t` writes back is block `t` of the product of the whole arrays. -/
theorem flushedDense2 (c : Dev nD) (t : Fin cfg2.N) :
    (dat2 (F := Ideal) V c).flushed 2 t
      = ((cfg2.win 2).blk t).view.read (Elt Ideal) (Cert.Gcn.dense (V c main_v45) (V c main_arg3)) := by
  show (cfg2.win 2).cut (grid2.coords t) ((dat2 V c).after 2 t) = _
  rw [after2_2]
  unfold out2_2
  rw [View.canon_unit_zero zeroOffsets]
  simp only [View.ld_unit_zero (S := S10000x64) zeroOffsets, View.ld_unit_zero (S := S64x64) zeroOffsets]
  obtain ⟨-, -, -, -, e4, e5⟩ := denseIndex2 t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
    = Cert.Gcn.dense (V c main_v45) (V c main_arg3) (((cfg2.win 2).blk t).view.emb (ix2 p q))
  refine (matmulEntry2 (iblk2 V c 0 t) (iblk2 V c 1 t) p q).trans ?_
  refine Eq.trans ?_ (dense_apply (V c main_v45) (V c main_arg3) _
    ⟨t.val * 10000 + p.val, by have := densePoint2_lt t; have := p.isLt; omega⟩ q ?_ ?_).symm
  · exact Finset.sum_congr rfl fun k _ => by rw [denseRows2 V c t p k, denseCols2 V c t k q]
  · show win2_2.index t (0 : Fin 2) * 10000 + 1 * p.val = t.val * 10000 + p.val; rw [e4]; omega
  · show win2_2.index t (1 : Fin 2) * 64 + 1 * q.val = q.val; rw [e5]; omega

/-- An index of the output array is in point `t`'s block iff each coordinate is in the block's range on its axis. -/
theorem memDense2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row `r` of the output array is written back by point `r / 10000`: the ten blocks cover the array. -/
theorem coverDense2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by rw [show cfg2.N = 10 from N_2]; omega⟩, rfl⟩
  obtain ⟨-, -, -, -, e4, e5⟩ := denseIndex2 t
  refine ⟨t, flush2_2 t, ?_⟩
  rw [memDense2]
  intro a
  match a with
  | ⟨0, _⟩ => show win2_2.index t (0 : Fin 2) * 10000 ≤ (i 0).val ∧ (i 0).val < win2_2.index t (0 : Fin 2) * 10000 + 10000; rw [e4, ht]; omega
  | ⟨1, _⟩ => show win2_2.index t (1 : Fin 2) * 64 ≤ (i 1).val ∧ (i 1).val < win2_2.index t (1 : Fin 2) * 64 + 64; rw [e5]; omega

/-- The output array after the region: the product of the two arrays the region reads, as it finds them. -/
theorem dense2 (c : Dev nD) : (dat2 (F := Ideal) V c).arrAt 2 cfg2.N = Cert.Gcn.dense (V c main_v45) (V c main_arg3) :=
  (dat2 (F := Ideal) V c).arrAt_eq_of_cover 2 (Cert.Gcn.dense (V c main_v45) (V c main_arg3))
    (fun t _ => flushedDense2 V c t) coverDense2

/-! ## Region 4: `main_v62` is the product of `main_v61` and `main_arg5` -/

/-- The block's payload at `(p, q)`: row `p` of the block against column `q` of the right operand (the same-shape cast
    of the block and the narrowing of both operands change nothing). -/
theorem matmulEntry4 (x0 : Vec Ideal S10000x64 .f32) (x1 : Vec Ideal S64x64 .f32) (p : Fin 10000) (q : Fin 64) :
    k4_pay1 x0 x1 (ix2 p q) = ∑ k : Fin 64, (x0 (ix2 p k) : EReal) * (x1 (ix2 k q) : EReal) := by
  unfold k4_pay1
  refine (Cert.LibPlainDot.matmul_zero_apply dot_S10000x64_S64x64_S10000x64_1_0_0_1_n_n ⟨rfl, rfl, rfl, rfl, rfl, rfl⟩ none
    (truncf .bf16 (shapeCast S10000x64 x0 shapeCasts_S10000x64_S10000x64) bitsLt_bf16_f32) (truncf .bf16 x1 bitsLt_bf16_f32) p q).trans ?_
  rw [shapeCast_self]
  rfl

/-- The printed index maps, decided over the ten points: the row windows sit at block `(t, 0)`, the right operand's
    window at block `(0, 0)`. -/
theorem denseIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- There are ten points. -/
theorem densePoint4_lt (t : Fin cfg4.N) : t.val < 10 := by
  have h : t.val < cfg4.N := t.isLt
  have hN : cfg4.N = 10 := N_4
  omega

/-- The left operand's block at point `t` is rows `10000·t …` of its array. -/
theorem denseRows4 (c : Dev nD) (t : Fin cfg4.N) (p : Fin 10000) (k : Fin 64) :
    iblk4 V c 0 t (ix2 p k)
      = (V c main_v61 : S100000x64.Idx → EReal) (ix2 ⟨t.val * 10000 + p.val, by have := densePoint4_lt t; have := p.isLt; omega⟩ k) := by
  obtain ⟨e0, e1, -, -, -, -⟩ := denseIndex4 t
  show (V c main_v61 : S100000x64.Idx → EReal) (((cfg4.win 0).blk t).view.emb (ix2 p k)) = _
  refine congrArg (V c main_v61 : S100000x64.Idx → EReal) (funext fun a => Fin.ext ?_)
  match a with
  | ⟨0, _⟩ => show win4_0.index t (0 : Fin 2) * 10000 + 1 * p.val = t.val * 10000 + p.val; rw [e0]; omega
  | ⟨1, _⟩ => show win4_0.index t (1 : Fin 2) * 64 + 1 * k.val = k.val; rw [e1]; omega

/-- The right operand's block at every point is its whole array. -/
theorem denseCols4 (c : Dev nD) (t : Fin cfg4.N) (k : Fin 64) (q : Fin 64) :
    iblk4 V c 1 t (ix2 k q) = (V c main_arg5 : S64x64.Idx → EReal) (ix2 k q) := by
  obtain ⟨-, -, e2, e3, -, -⟩ := denseIndex4 t
  show (V c main_arg5 : S64x64.Idx → EReal) (((cfg4.win 1).blk t).view.emb (ix2 k q)) = _
  refine congrArg (V c main_arg5 : S64x64.Idx → EReal) (funext fun a => Fin.ext ?_)
  match a with
  | ⟨0, _⟩ => show win4_1.index t (0 : Fin 2) * 64 + 1 * k.val = k.val; rw [e2]; omega
  | ⟨1, _⟩ => show win4_1.index t (1 : Fin 2) * 64 + 1 * q.val = q.val; rw [e3]; omega

/-- What point `t` writes back is block `t` of the product of the whole arrays. -/
theorem flushedDense4 (c : Dev nD) (t : Fin cfg4.N) :
    (dat4 (F := Ideal) V c).flushed 2 t
      = ((cfg4.win 2).blk t).view.read (Elt Ideal) (Cert.Gcn.dense (V c main_v61) (V c main_arg5)) := by
  show (cfg4.win 2).cut (grid4.coords t) ((dat4 V c).after 2 t) = _
  rw [after4_2]
  unfold out4_2
  rw [View.canon_unit_zero zeroOffsets]
  simp only [View.ld_unit_zero (S := S10000x64) zeroOffsets, View.ld_unit_zero (S := S64x64) zeroOffsets]
  obtain ⟨-, -, -, -, e4, e5⟩ := denseIndex4 t
  funext j
  obtain ⟨p, q, rfl⟩ : ∃ (p : Fin 10000) (q : Fin 64), j = ix2 p q := ⟨j 0, j 1, eq_ix2 j⟩
  show k4_pay1 (iblk4 V c 0 t) (iblk4 V c 1 t) (ix2 p q)
    = Cert.Gcn.dense (V c main_v61) (V c main_arg5) (((cfg4.win 2).blk t).view.emb (ix2 p q))
  refine (matmulEntry4 (iblk4 V c 0 t) (iblk4 V c 1 t) p q).trans ?_
  refine Eq.trans ?_ (dense_apply (V c main_v61) (V c main_arg5) _
    ⟨t.val * 10000 + p.val, by have := densePoint4_lt t; have := p.isLt; omega⟩ q ?_ ?_).symm
  · exact Finset.sum_congr rfl fun k _ => by rw [denseRows4 V c t p k, denseCols4 V c t k q]
  · show win4_2.index t (0 : Fin 2) * 10000 + 1 * p.val = t.val * 10000 + p.val; rw [e4]; omega
  · show win4_2.index t (1 : Fin 2) * 64 + 1 * q.val = q.val; rw [e5]; omega

/-- An index of the output array is in point `t`'s block iff each coordinate is in the block's range on its axis. -/
theorem memDense4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v62).slice (win4_2.rect t)).set ↔ _
  rw [View.set_slice_whole, Rect.mem_set_unit]
  exact Iff.rfl

/-- Row `r` of the output array is written back by point `r / 10000`: the ten blocks cover the array. -/
theorem coverDense4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ : ∃ t : Fin cfg4.N, t.val = (i 0).val / 10000 :=
    ⟨⟨(i 0).val / 10000, by rw [show cfg4.N = 10 from N_4]; omega⟩, rfl⟩
  obtain ⟨-, -, -, -, e4, e5⟩ := denseIndex4 t
  refine ⟨t, flush4_2 t, ?_⟩
  rw [memDense4]
  intro a
  match a with
  | ⟨0, _⟩ => show win4_2.index t (0 : Fin 2) * 10000 ≤ (i 0).val ∧ (i 0).val < win4_2.index t (0 : Fin 2) * 10000 + 10000; rw [e4, ht]; omega
  | ⟨1, _⟩ => show win4_2.index t (1 : Fin 2) * 64 ≤ (i 1).val ∧ (i 1).val < win4_2.index t (1 : Fin 2) * 64 + 64; rw [e5]; omega

/-- The output array after the region: the product of the two arrays the region reads, as it finds them. -/
theorem dense4 (c : Dev nD) : (dat4 (F := Ideal) V c).arrAt 2 cfg4.N = Cert.Gcn.dense (V c main_v61) (V c main_arg5) :=
  (dat4 (F := Ideal) V c).arrAt_eq_of_cover 2 (Cert.Gcn.dense (V c main_v61) (V c main_arg5))
    (fun t _ => flushedDense4 V c t) coverDense4

end Cert.KernelIdeal.RegionValue

end
-- ==== Proof.RegionBias.lean ====
import proofs.«148743_j730144441189_1_alg».proof.Proof.Gen.KernelIdeal.Frame
import proofs.«148743_j730144441189_1_alg».proof.Proof.Spec
import Idealize.ShloMosaic.Lib.Pipeline.Value
import Idealize.ShloMosaic.Lib.ValueIdx
import Idealize.ShloMosaic.Lib.ValueLayout

/-!
# What each bias-and-positive-part region leaves in its output array

A bias region walks the 100000 rows of its first operand in ten blocks of 10000 rows. At block `t` it adds the one
bias row to each of the rows `10000·t … 10000·t + 9999`, takes the larger of each sum and zero, and writes the block
back over the same rows of the output array. Entry `(p, q)` of the block's result depends on entry `(p, q)` of the
block and entry `q` of the bias row only, so it is entry `(10000·t + p, q)` of `Cert.Gcn.biasRelu` of the whole arrays;
the ten blocks cover every row, hence the output array ends holding that function.
-/

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-buffer access, however they are spelt. -/
theorem noOffsets : (![0, 0] : Fin 2 → Nat) = fun _ => 0 := funext fun a => by fin_cases a <;> rfl

/-- The bias added and the positive part taken, at an index whose coordinates are `r` and `q`: the larger of
    `a (r, q) + b (0, q)` and zero. -/
theorem biasRelu_apply (a : (⟨2, ![100000, 64]⟩ : Shape).Idx → EReal) (b : (⟨2, ![1, 64]⟩ : Shape).Idx → EReal)
    (i : (⟨2, ![100000, 64]⟩ : Shape).Idx) (r : Fin 100000) (q : Fin 64) (h0 : (i 0).val = r.val) (h1 : (i 1).val = q.val) :
    Cert.Gcn.biasRelu a b i = max (a (ix2 r q) + b (ix2 (0 : Fin 1) q)) (Ideal.ofBits .f32 0x00000000#32) := by
  have e : i = ix2 r q := funext fun ax => Fin.ext (by
    match ax with
    | ⟨0, _⟩ => exact h0
    | ⟨1, _⟩ => exact h1)
  subst e
  rfl

/-! ## Region 1: `main_v45` is `main_v43` with the bias row `main_v44` added and the positive part taken -/

/-- The block's payload at `(p, q)`: the block's entry plus the bias row's entry `q`, or zero if that is larger
    (the two same-shape casts change nothing; the one row is read on every row). -/
theorem biasEntry1 (x0 : Vec Ideal S10000x64 .f32) (x1 : Vec Ideal S1x64 .f32) (p : Fin 10000) (q : Fin 64) :
    k1_pay1 x0 x1 (ix2 p q)
      = max ((x0 (ix2 p q) : EReal) + (x1 (ix2 (0 : Fin 1) q) : EReal)) (Ideal.ofBits .f32 0x00000000#32) := by
  unfold k1_pay1
  show max (shapeCast S10000x64 x0 shapeCasts_S10000x64_S10000x64 (ix2 p q)
      + broadcastTo S10000x64 (shapeCast S1x64 x1 shapeCasts_S1x64_S1x64) broadcasts_S1x64_S10000x64 (ix2 p q))
    (Ideal.ofBits .f32 0x00000000#32) = _
  rw [shapeCast_self, shapeCast_self, broadcastTo_1b_ab_apply]

/-- The printed index maps, decided over the ten points: the row windows sit at block `(t, 0)`, the bias row's
    window at block `(0, 0)`. -/
theorem biasIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- There are ten points. -/
theorem biasPoint1_lt (t : Fin cfg1.N) : t.val < 10 := by
  have h : t.val < cfg1.N := t.isLt
  have hN : cfg1.N = 10 := N_1
  omega

/-- The first operand's block at point `t` is rows `10000·t …` of its array. -/
theorem biasRows1 (c : Dev nD) (t : Fin cfg1.N) (p : Fin 10000) (q : Fin 64) :
    iblk1 V c 0 t (ix2 p q)
      = (V c main_v43 : S100000x64.Idx → EReal) (ix2 ⟨t.val * 10000 + p.val, by have := biasPoint1_lt t; have := p.isLt; omega⟩ q) := by
  obtain ⟨e0, e1, -, -, -, -⟩ := biasIndex1 t
  show (V c main_v43 : S100000x64.Idx → EReal) (((cfg1.win 0).blk t).view.emb (ix2 p q)) = _
  refine congrArg (V c main_v43 : S100000x64.Idx → EReal) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 64 + 1 * q.val = q.val; rw [e1]; omega

/-- The bias window's block at every point is the whole one-row array. -/
theorem biasRow1 (c : Dev nD) (t : Fin cfg1.N) (q : Fin 64) :
    iblk1 V c 1 t (ix2 (0 : Fin 1) q) = (V c main_v44 : S1x64.Idx → EReal) (ix2 (0 : Fin 1) q) := by
  obtain ⟨-, -, e2, e3, -, -⟩ := biasIndex1 t
  show (V c main_v44 : S1x64.Idx → EReal) (((cfg1.win 1).blk t).view.emb (ix2 (0 : Fin 1) q)) = _
  refine congrArg (V c main_v44 : S1x64.Idx → EReal) (funext fun a => Fin.ext ?_)
  match a with
  | ⟨0, _⟩ => show win1_1.index t (0 : Fin 2) * 1 + 1 * 0 = 0; rw [e2]
  | ⟨1, _⟩ => show win1_1.index t (1 : Fin 2) * 64 + 1 * q.val = q.val; rw [e3]; omega

/-- What point `t` writes back is block `t` of the bias-and-positive-part of the whole arrays. -/
theorem flushedBias1 (c : Dev nD) (t : Fin cfg1.N) :
    (dat1 (F := Ideal) V c).flushed 2 t
      = ((cfg1.win 2).blk t).view.read (Elt Ideal) (Cert.Gcn.biasRelu (V c main_v43) (V c main_v44)) := by
  show (cfg1.win 2).cut (grid1.coords t) ((dat1 V c).after 2 t) = _
  rw [after1_2]
  unfold out1_2
  rw [View.canon_unit_zero noOffsets]
  simp only [View.ld_unit_zero (S := S10000x64) noOffsets, View.ld_unit_zero (S := S1x64) noOffsets]
  obtain ⟨-, -, -, -, e4, e5⟩ := biasIndex1 t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = Cert.Gcn.biasRelu (V c main_v43) (V c main_v44) (((cfg1.win 2).blk t).view.emb (ix2 p q))
  refine (biasEntry1 (iblk1 V c 0 t) (iblk1 V c 1 t) p q).trans ?_
  refine Eq.trans ?_ (biasRelu_apply (V c main_v43) (V c main_v44) _
    ⟨t.val * 10000 + p.val, by have := biasPoint1_lt t; have := p.isLt; omega⟩ q ?_ ?_).symm
  · rw [biasRows1 V c t p q, biasRow1 V c t q]
  · show win1_2.index t (0 : Fin 2) * 10000 + 1 * p.val = t.val * 10000 + p.val; rw [e4]; omega
  · show win1_2.index t (1 : Fin 2) * 64 + 1 * q.val = q.val; rw [e5]; omega

/-- An index of the output array is in point `t`'s block iff each coordinate is in the block's range on its axis. -/
theorem memBias1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Row `r` of the output array is written back by point `r / 10000`: the ten blocks cover the array. -/
theorem coverBias1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, e4, e5⟩ := biasIndex1 t
  refine ⟨t, flush1_2 t, ?_⟩
  rw [memBias1]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 64 ≤ (i 1).val ∧ (i 1).val < win1_2.index t (1 : Fin 2) * 64 + 64; rw [e5]; omega

/-- The output array after the region: the bias row added to every row of the array the region reads, as it finds
    it, and the positive part taken. -/
theorem bias1 (c : Dev nD) : (dat1 (F := Ideal) V c).arrAt 2 cfg1.N = Cert.Gcn.biasRelu (V c main_v43) (V c main_v44) :=
  (dat1 (F := Ideal) V c).arrAt_eq_of_cover 2 (Cert.Gcn.biasRelu (V c main_v43) (V c main_v44))
    (fun t _ => flushedBias1 V c t) coverBias1

/-! ## Region 3: `main_v61` is `main_v59` with the bias row `main_v60` added and the positive part taken -/

/-- The block's payload at `(p, q)`: the block's entry plus the bias row's entry `q`, or zero if that is larger
    (the two same-shape casts change nothing; the one row is read on every row). -/
theorem biasEntry3 (x0 : Vec Ideal S10000x64 .f32) (x1 : Vec Ideal S1x64 .f32) (p : Fin 10000) (q : Fin 64) :
    k3_pay1 x0 x1 (ix2 p q)
      = max ((x0 (ix2 p q) : EReal) + (x1 (ix2 (0 : Fin 1) q) : EReal)) (Ideal.ofBits .f32 0x00000000#32) := by
  unfold k3_pay1
  show max (shapeCast S10000x64 x0 shapeCasts_S10000x64_S10000x64 (ix2 p q)
      + broadcastTo S10000x64 (shapeCast S1x64 x1 shapeCasts_S1x64_S1x64) broadcasts_S1x64_S10000x64 (ix2 p q))
    (Ideal.ofBits .f32 0x00000000#32) = _
  rw [shapeCast_self, shapeCast_self, broadcastTo_1b_ab_apply]

/-- The printed index maps, decided over the ten points: the row windows sit at block `(t, 0)`, the bias row's
    window at block `(0, 0)`. -/
theorem biasIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- There are ten points. -/
theorem biasPoint3_lt (t : Fin cfg3.N) : t.val < 10 := by
  have h : t.val < cfg3.N := t.isLt
  have hN : cfg3.N = 10 := N_3
  omega

/-- The first operand's block at point `t` is rows `10000·t …` of its array. -/
theorem biasRows3 (c : Dev nD) (t : Fin cfg3.N) (p : Fin 10000) (q : Fin 64) :
    iblk3 V c 0 t (ix2 p q)
      = (V c main_v59 : S100000x64.Idx → EReal) (ix2 ⟨t.val * 10000 + p.val, by have := biasPoint3_lt t; have := p.isLt; omega⟩ q) := by
  obtain ⟨e0, e1, -, -, -, -⟩ := biasIndex3 t
  show (V c main_v59 : S100000x64.Idx → EReal) (((cfg3.win 0).blk t).view.emb (ix2 p q)) = _
  refine congrArg (V c main_v59 : S100000x64.Idx → EReal) (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 64 + 1 * q.val = q.val; rw [e1]; omega

/-- The bias window's block at every point is the whole one-row array. -/
theorem biasRow3 (c : Dev nD) (t : Fin cfg3.N) (q : Fin 64) :
    iblk3 V c 1 t (ix2 (0 : Fin 1) q) = (V c main_v60 : S1x64.Idx → EReal) (ix2 (0 : Fin 1) q) := by
  obtain ⟨-, -, e2, e3, -, -⟩ := biasIndex3 t
  show (V c main_v60 : S1x64.Idx → EReal) (((cfg3.win 1).blk t).view.emb (ix2 (0 : Fin 1) q)) = _
  refine congrArg (V c main_v60 : S1x64.Idx → EReal) (funext fun a => Fin.ext ?_)
  match a with
  | ⟨0, _⟩ => show win3_1.index t (0 : Fin 2) * 1 + 1 * 0 = 0; rw [e2]
  | ⟨1, _⟩ => show win3_1.index t (1 : Fin 2) * 64 + 1 * q.val = q.val; rw [e3]; omega

/-- What point `t` writes back is block `t` of the bias-and-positive-part of the whole arrays. -/
theorem flushedBias3 (c : Dev nD) (t : Fin cfg3.N) :
    (dat3 (F := Ideal) V c).flushed 2 t
      = ((cfg3.win 2).blk t).view.read (Elt Ideal) (Cert.Gcn.biasRelu (V c main_v59) (V c main_v60)) := by
  show (cfg3.win 2).cut (grid3.coords t) ((dat3 V c).after 2 t) = _
  rw [after3_2]
  unfold out3_2
  rw [View.canon_unit_zero noOffsets]
  simp only [View.ld_unit_zero (S := S10000x64) noOffsets, View.ld_unit_zero (S := S1x64) noOffsets]
  obtain ⟨-, -, -, -, e4, e5⟩ := biasIndex3 t
  funext j
  obtain ⟨p, q, rfl⟩ : ∃ (p : Fin 10000) (q : Fin 64), j = ix2 p q := ⟨j 0, j 1, eq_ix2 j⟩
  show k3_pay1 (iblk3 V c 0 t) (iblk3 V c 1 t) (ix2 p q)
    = Cert.Gcn.biasRelu (V c main_v59) (V c main_v60) (((cfg3.win 2).blk t).view.emb (ix2 p q))
  refine (biasEntry3 (iblk3 V c 0 t) (iblk3 V c 1 t) p q).trans ?_
  refine Eq.trans ?_ (biasRelu_apply (V c main_v59) (V c main_v60) _
    ⟨t.val * 10000 + p.val, by have := biasPoint3_lt t; have := p.isLt; omega⟩ q ?_ ?_).symm
  · rw [biasRows3 V c t p q, biasRow3 V c t q]
  · show win3_2.index t (0 : Fin 2) * 10000 + 1 * p.val = t.val * 10000 + p.val; rw [e4]; omega
  · show win3_2.index t (1 : Fin 2) * 64 + 1 * q.val = q.val; rw [e5]; omega

/-- An index of the output array is in point `t`'s block iff each coordinate is in the block's range on its axis. -/
theorem memBias3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Row `r` of the output array is written back by point `r / 10000`: the ten blocks cover the array. -/
theorem coverBias3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, by rw [show cfg3.N = 10 from N_3]; omega⟩, rfl⟩
  obtain ⟨-, -, -, -, e4, e5⟩ := biasIndex3 t
  refine ⟨t, flush3_2 t, ?_⟩
  rw [memBias3]
  intro a
  match a with
  | ⟨0, _⟩ => show win3_2.index t (0 : Fin 2) * 10000 ≤ (i 0).val ∧ (i 0).val < win3_2.index t (0 : Fin 2) * 10000 + 10000; rw [e4, ht]; omega
  | ⟨1, _⟩ => show win3_2.index t (1 : Fin 2) * 64 ≤ (i 1).val ∧ (i 1).val < win3_2.index t (1 : Fin 2) * 64 + 64; rw [e5]; omega

/-- The output array after the region: the bias row added to every row of the array the region reads, as it finds
    it, and the positive part taken. -/
theorem bias3 (c : Dev nD) : (dat3 (F := Ideal) V c).arrAt 2 cfg3.N = Cert.Gcn.biasRelu (V c main_v59) (V c main_v60) :=
  (dat3 (F := Ideal) V c).arrAt_eq_of_cover 2 (Cert.Gcn.biasRelu (V c main_v59) (V c main_v60))
    (fun t _ => flushedBias3 V c t) coverBias3

/-! ## Region 5: `main_v77` is `main_v75` with the bias row `main_v76` added and the positive part taken -/

/-- The block's payload at `(p, q)`: the block's entry plus the bias row's entry `q`, or zero if that is larger
    (the two same-shape casts change nothing; the one row is read on every row). -/
theorem biasEntry5 (x0 : Vec Ideal S10000x64 .f32) (x1 : Vec Ideal S1x64 .f32) (p : Fin 10000) (q : Fin 64) :
    k5_pay1 x0 x1 (ix2 p q)
      = max ((x0 (ix2 p q) : EReal) + (x1 (ix2 (0 : Fin 1) q) : EReal)) (Ideal.ofBits .f32 0x00000000#32) := by
  unfold k5_pay1
  show max (shapeCast S10000x64 x0 shapeCasts_S10000x64_S10000x64 (ix2 p q)
      + broadcastTo S10000x64 (shapeCast S1x64 x1 shapeCasts_S1x64_S1x64) broadcasts_S1x64_S10000x64 (ix2 p q))
    (Ideal.ofBits .f32 0x00000000#32) = _
  rw [shapeCast_self, shapeCast_self, broadcastTo_1b_ab_apply]

/-- The printed index maps, decided over the ten points: the row windows sit at block `(t, 0)`, the bias row's
    window at block `(0, 0)`. -/
theorem biasIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- There are ten points. -/
theorem biasPoint5_lt (t : Fin cfg5.N) : t.val < 10 := by
  have h : t.val < cfg5.N := t.isLt
  have hN : cfg5.N = 10 := N_5
  omega

/-- The first operand's block at point `t` is rows `10000·t …` of its array. -/
theorem biasRows5 (c : Dev nD) (t : Fin cfg5.N) (p : Fin 10000) (q : Fin 64) :
    iblk5 V c 0 t (ix2 p q)
      = (V c main_v75 : S100000x64.Idx → EReal) (ix2 ⟨t.val * 10000 + p.val, by have := biasPoint5_lt t; have := p.isLt; omega⟩ q) := by
  obtain ⟨e0, e1, -, -, -, -⟩ := biasIndex5 t
  show (V c main_v75 : S100000x64.Idx → EReal) (((cfg5.win 0).blk t).view.emb (ix2 p q)) = _
  refine congrArg (V c main_v75 : S100000x64.Idx → EReal) (funext fun a => Fin.ext ?_)
  match a with
  | ⟨0, _⟩ => show win5_0.index t (0 : Fin 2) * 10000 + 1 * p.val = t.val * 10000 + p.val; rw [e0]; omega
  | ⟨1, _⟩ => show win5_0.index t (1 : Fin 2) * 64 + 1 * q.val = q.val; rw [e1]; omega

/-- The bias window's block at every point is the whole one-row array. -/
theorem biasRow5 (c : Dev nD) (t : Fin cfg5.N) (q : Fin 64) :
    iblk5 V c 1 t (ix2 (0 : Fin 1) q) = (V c main_v76 : S1x64.Idx → EReal) (ix2 (0 : Fin 1) q) := by
  obtain ⟨-, -, e2, e3, -, -⟩ := biasIndex5 t
  show (V c main_v76 : S1x64.Idx → EReal) (((cfg5.win 1).blk t).view.emb (ix2 (0 : Fin 1) q)) = _
  refine congrArg (V c main_v76 : S1x64.Idx → EReal) (funext fun a => Fin.ext ?_)
  match a with
  | ⟨0, _⟩ => show win5_1.index t (0 : Fin 2) * 1 + 1 * 0 = 0; rw [e2]
  | ⟨1, _⟩ => show win5_1.index t (1 : Fin 2) * 64 + 1 * q.val = q.val; rw [e3]; omega

/-- What point `t` writes back is block `t` of the bias-and-positive-part of the whole arrays. -/
theorem flushedBias5 (c : Dev nD) (t : Fin cfg5.N) :
    (dat5 (F := Ideal) V c).flushed 2 t
      = ((cfg5.win 2).blk t).view.read (Elt Ideal) (Cert.Gcn.biasRelu (V c main_v75) (V c main_v76)) := by
  show (cfg5.win 2).cut (grid5.coords t) ((dat5 V c).after 2 t) = _
  rw [after5_2]
  unfold out5_2
  rw [View.canon_unit_zero noOffsets]
  simp only [View.ld_unit_zero (S := S10000x64) noOffsets, View.ld_unit_zero (S := S1x64) noOffsets]
  obtain ⟨-, -, -, -, e4, e5⟩ := biasIndex5 t
  funext j
  obtain ⟨p, q, rfl⟩ : ∃ (p : Fin 10000) (q : Fin 64), j = ix2 p q := ⟨j 0, j 1, eq_ix2 j⟩
  show k5_pay1 (iblk5 V c 0 t) (iblk5 V c 1 t) (ix2 p q)
    = Cert.Gcn.biasRelu (V c main_v75) (V c main_v76) (((cfg5.win 2).blk t).view.emb (ix2 p q))
  refine (biasEntry5 (iblk5 V c 0 t) (iblk5 V c 1 t) p q).trans ?_
  refine Eq.trans ?_ (biasRelu_apply (V c main_v75) (V c main_v76) _
    ⟨t.val * 10000 + p.val, by have := biasPoint5_lt t; have := p.isLt; omega⟩ q ?_ ?_).symm
  · rw [biasRows5 V c t p q, biasRow5 V c t q]
  · show win5_2.index t (0 : Fin 2) * 10000 + 1 * p.val = t.val * 10000 + p.val; rw [e4]; omega
  · show win5_2.index t (1 : Fin 2) * 64 + 1 * q.val = q.val; rw [e5]; omega

/-- An index of the output array is in point `t`'s block iff each coordinate is in the block's range on its axis. -/
theorem memBias5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v77).slice (win5_2.rect t)).set ↔ _
  rw [View.set_slice_whole, Rect.mem_set_unit]
  exact Iff.rfl

/-- Row `r` of the output array is written back by point `r / 10000`: the ten blocks cover the array. -/
theorem coverBias5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ : ∃ t : Fin cfg5.N, t.val = (i 0).val / 10000 :=
    ⟨⟨(i 0).val / 10000, by rw [show cfg5.N = 10 from N_5]; omega⟩, rfl⟩
  obtain ⟨-, -, -, -, e4, e5⟩ := biasIndex5 t
  refine ⟨t, flush5_2 t, ?_⟩
  rw [memBias5]
  intro a
  match a with
  | ⟨0, _⟩ => show win5_2.index t (0 : Fin 2) * 10000 ≤ (i 0).val ∧ (i 0).val < win5_2.index t (0 : Fin 2) * 10000 + 10000; rw [e4, ht]; omega
  | ⟨1, _⟩ => show win5_2.index t (1 : Fin 2) * 64 ≤ (i 1).val ∧ (i 1).val < win5_2.index t (1 : Fin 2) * 64 + 64; rw [e5]; omega

/-- The output array after the region: the bias row added to every row of the array the region reads, as it finds
    it, and the positive part taken. -/
theorem bias5 (c : Dev nD) : (dat5 (F := Ideal) V c).arrAt 2 cfg5.N = Cert.Gcn.biasRelu (V c main_v75) (V c main_v76) :=
  (dat5 (F := Ideal) V c).arrAt_eq_of_cover 2 (Cert.Gcn.biasRelu (V c main_v75) (V c main_v76))
    (fun t _ => flushedBias5 V c t) coverBias5

end Cert.KernelIdeal.RegionValue

end
-- ==== Proof.Stages.lean ====
import proofs.«148743_j730144441189_1_alg».proof.Proof.Gen.KernelIdeal.Frame
import proofs.«148743_j730144441189_1_alg».proof.Proof.Net
import proofs.«148743_j730144441189_1_alg».proof.Proof.RegionDense
import proofs.«148743_j730144441189_1_alg».proof.Proof.RegionBias

/-!
# What each stage of the kernel program leaves, boundary by boundary

Between two boundaries of the run (`Gen.W0` … `Gen.W12`) lies either a region or a stretch of host operations. A
region leaves in its output array the dense map or the bias-and-positive-part of its two input arrays; a stretch leaves
the edge stage of the previous region's output and the bias argument laid out as a row. Each is stated here over the
contents at the boundary before it.
-/

set_option maxRecDepth 16384

noncomputable section

namespace Cert.KernelIdeal.RunValue

open Cert.KernelIdeal Cert.KernelIdeal.Gen
open Idealize.ShloMosaic Idealize.ShloMosaic.TcCoe Idealize.SL.Sem
open Idealize.ShloMosaic.Pipeline (Dat)
open Cert.KernelIdeal.Facts₀ Idealize.ShloMosaic.StableHlo

variable (m : (ℓ : Loc nD τ sig) → Buf (Elt Ideal) ℓ) (ρ : Dev nD → PrngReg) (c : Dev nD)

/-- Region 0 leaves in `main_v30` the product of `main_arg0` with the weights `main_arg1`, as the region finds them. -/
theorem at4_v30 : W4 m ρ c (Proc.devRef .tc main_v30) = Cert.Gcn.dense (W3 m ρ c (Proc.devRef .tc main_arg0)) (W3 m ρ c (Proc.devRef .tc main_arg1)) :=
  (W4_arr m ρ c 2).trans (RegionValue.dense0 (V3 m ρ) c)

set_option maxHeartbeats 4000000 in
/-- The edge stage between boundaries 4 and 5: `main_v43` is the rows of `main_v30` gathered at the edges' sources, scaled by
    the edges' normalisation and added up at their destinations (the stretch's seventeen host operations, composed). -/
theorem at5_v43 : W5 m ρ c (Proc.devRef .tc main_v43)
    = Net.aggregate (W4 m ρ c (Proc.devRef .tc main_v3)) (W4 m ρ c (Proc.devRef .tc main_v6)) (W4 m ρ c (Proc.devRef .tc main_v29)) (W4 m ρ c (Proc.devRef .tc main_v30)) := by
  show StableHlo.after hostOps1 (W4 m ρ c) (Proc.devRef .tc main_v43) = _
  dsimp only [hostOps1]
  after_results_simp
  rfl

/-- The same stretch lays the bias `main_arg2` out as one row of 64. -/
theorem at5_v44 : W5 m ρ c (Proc.devRef .tc main_v44) = shapeCast S1x64 (W4 m ρ c (Proc.devRef .tc main_arg2)) Facts₀.shapeCasts_S64_S1x64 := by
  show StableHlo.after hostOps1 (W4 m ρ c) (Proc.devRef .tc main_v44) = _
  dsimp only [hostOps1]
  after_results_simp
  rfl

/-- Region 1 leaves in `main_v45` the rows of `main_v43` with the bias row `main_v44` added and the positive part taken. -/
theorem at6_v45 : W6 m ρ c (Proc.devRef .tc main_v45) = Cert.Gcn.biasRelu (W5 m ρ c (Proc.devRef .tc main_v43)) (W5 m ρ c (Proc.devRef .tc main_v44)) :=
  (W6_arr m ρ c 2).trans (RegionValue.bias1 (V5 m ρ) c)

/-- Region 2 leaves in `main_v46` the product of `main_v45` with the weights `main_arg3`, as the region finds them. -/
theorem at7_v46 : W7 m ρ c (Proc.devRef .tc main_v46) = Cert.Gcn.dense (W6 m ρ c (Proc.devRef .tc main_v45)) (W6 m ρ c (Proc.devRef .tc main_arg3)) :=
  (W7_arr m ρ c 2).trans (RegionValue.dense2 (V6 m ρ) c)

set_option maxHeartbeats 4000000 in
/-- The edge stage between boundaries 7 and 8: `main_v59` is the rows of `main_v46` gathered at the edges' sources, scaled by
    the edges' normalisation and added up at their destinations (the stretch's seventeen host operations, composed). -/
theorem at8_v59 : W8 m ρ c (Proc.devRef .tc main_v59)
    = Net.aggregate (W7 m ρ c (Proc.devRef .tc main_v3)) (W7 m ρ c (Proc.devRef .tc main_v6)) (W7 m ρ c (Proc.devRef .tc main_v29)) (W7 m ρ c (Proc.devRef .tc main_v46)) := by
  show StableHlo.after hostOps3 (W7 m ρ c) (Proc.devRef .tc main_v59) = _
  dsimp only [hostOps3]
  after_results_simp
  rfl

/-- The same stretch lays the bias `main_arg4` out as one row of 64. -/
theorem at8_v60 : W8 m ρ c (Proc.devRef .tc main_v60) = shapeCast S1x64 (W7 m ρ c (Proc.devRef .tc main_arg4)) Facts₀.shapeCasts_S64_S1x64 := by
  show StableHlo.after hostOps3 (W7 m ρ c) (Proc.devRef .tc main_v60) = _
  dsimp only [hostOps3]
  after_results_simp
  rfl

/-- Region 3 leaves in `main_v61` the rows of `main_v59` with the bias row `main_v60` added and the positive part taken. -/
theorem at9_v61 : W9 m ρ c (Proc.devRef .tc main_v61) = Cert.Gcn.biasRelu (W8 m ρ c (Proc.devRef .tc main_v59)) (W8 m ρ c (Proc.devRef .tc main_v60)) :=
  (W9_arr m ρ c 2).trans (RegionValue.bias3 (V8 m ρ) c)

/-- Region 4 leaves in `main_v62` the product of `main_v61` with the weights `main_arg5`, as the region finds them. -/
theorem at10_v62 : W10 m ρ c (Proc.devRef .tc main_v62) = Cert.Gcn.dense (W9 m ρ c (Proc.devRef .tc main_v61)) (W9 m ρ c (Proc.devRef .tc main_arg5)) :=
  (W10_arr m ρ c 2).trans (RegionValue.dense4 (V9 m ρ) c)

set_option maxHeartbeats 4000000 in
/-- The edge stage between boundaries 10 and 11: `main_v75` is the rows of `main_v62` gathered at the edges' sources, scaled by
    the edges' normalisation and added up at their destinations (the stretch's seventeen host operations, composed). -/
theorem at11_v75 : W11 m ρ c (Proc.devRef .tc main_v75)
    = Net.aggregate (W10 m ρ c (Proc.devRef .tc main_v3)) (W10 m ρ c (Proc.devRef .tc main_v6)) (W10 m ρ c (Proc.devRef .tc main_v29)) (W10 m ρ c (Proc.devRef .tc main_v62)) := by
  show StableHlo.after hostOps5 (W10 m ρ c) (Proc.devRef .tc main_v75) = _
  dsimp only [hostOps5]
  after_results_simp
  rfl

/-- The same stretch lays the bias `main_arg6` out as one row of 64. -/
theorem at11_v76 : W11 m ρ c (Proc.devRef .tc main_v76) = shapeCast S1x64 (W10 m ρ c (Proc.devRef .tc main_arg6)) Facts₀.shapeCasts_S64_S1x64 := by
  show StableHlo.after hostOps5 (W10 m ρ c) (Proc.devRef .tc main_v76) = _
  dsimp only [hostOps5]
  after_results_simp
  rfl

/-- Region 5 leaves in `main_v77` the rows of `main_v75` with the bias row `main_v76` added and the positive part taken. -/
theorem at12_v77 : W12 m ρ c (Proc.devRef .tc main_v77) = Cert.Gcn.biasRelu (W11 m ρ c (Proc.devRef .tc main_v75)) (W11 m ρ c (Proc.devRef .tc main_v76)) :=
  (W12_arr m ρ c 2).trans (RegionValue.bias5 (V11 m ρ) c)

end Cert.KernelIdeal.RunValue

end
-- ==== Proof.Edges.lean ====
import proofs.«148743_j730144441189_1_alg».proof.Proof.Gen.KernelIdeal.Frame
import proofs.«148743_j730144441189_1_alg».proof.Proof.Net
import proofs.«148743_j730144441189_1_alg».proof.Proof.Keeps

/-!
# The edge list and the edges' normalisation, as the first region finds them

Before its first region the program computes, from the edge table alone, the edges' sources and destinations with the
self-loops appended, the nodes' degrees, `1/√degree`, and each edge's normalisation. At boundary 3 (`Gen.W3`) the three
buffers the later stretches read hold exactly the functions `Net.srcOf`, `Net.dstOf` and `Net.normOf` of the launched
table. The forty host operations before the first region come in three stretches; each stretch is composed by itself, over
what the stretch before it left.
-/

set_option maxRecDepth 16384

noncomputable section

namespace Cert.KernelIdeal.RunValue

open Cert.KernelIdeal Cert.KernelIdeal.Gen
open Idealize.ShloMosaic Idealize.ShloMosaic.TcCoe Idealize.SL.Sem
open Idealize.ShloMosaic.Pipeline (Dat)
open Cert.KernelIdeal.Facts₀ Idealize.ShloMosaic.StableHlo

variable (m : (ℓ : Loc nD τ sig) → Buf (Elt Ideal) ℓ) (ρ : Dev nD → PrngReg) (c : Dev nD)

/-! ## The first stretch: sources, destinations, degrees -/

set_option maxHeartbeats 4000000 in
/-- The edges' sources. -/
theorem at1_v3 : W1 m ρ c (Proc.devRef .tc main_v3) = Net.srcOf (m ((c.tc : Thread nD τ).loc main_arg7)) := by
  show StableHlo.after hostOps0 (W0 m ρ c) (Proc.devRef .tc main_v3) = _
  dsimp only [hostOps0]
  after_results_simp
  rfl

set_option maxHeartbeats 4000000 in
/-- The edges' destinations. -/
theorem at1_v6 : W1 m ρ c (Proc.devRef .tc main_v6) = Net.dstOf (m ((c.tc : Thread nD τ).loc main_arg7)) := by
  show StableHlo.after hostOps0 (W0 m ρ c) (Proc.devRef .tc main_v6) = _
  dsimp only [hostOps0]
  after_results_simp
  rfl

set_option maxHeartbeats 4000000 in
/-- Which nodes have a positive degree. -/
theorem at1_v12 : W1 m ρ c (Proc.devRef .tc main_v12)
    = cmpf .ogt (Net.degOf (Net.dstOf (m ((c.tc : Thread nD τ).loc main_arg7)))) (broadcastInDim S100000 ![] Facts₀.bcast_S_S100000 (constant S_ .f32 0x00000000#32)) := by
  show StableHlo.after hostOps0 (W0 m ρ c) (Proc.devRef .tc main_v12) = _
  dsimp only [hostOps0]
  after_results_simp
  rfl

set_option maxHeartbeats 4000000 in
/-- `1/√degree`, wherever it is defined. -/
theorem at1_v13 : W1 m ρ c (Proc.devRef .tc main_v13) = Host.rsqrt (Net.degOf (Net.dstOf (m ((c.tc : Thread nD τ).loc main_arg7)))) := by
  show StableHlo.after hostOps0 (W0 m ρ c) (Proc.devRef .tc main_v13) = _
  dsimp only [hostOps0]
  after_results_simp
  rfl

set_option maxHeartbeats 4000000 in
/-- The zero the selection falls back to. -/
theorem at1_cst_2 : W1 m ρ c (Proc.devRef .tc main_cst_2) = constant (F := Ideal) S_ .f32 0x00000000#32 := by
  show StableHlo.after hostOps0 (W0 m ρ c) (Proc.devRef .tc main_cst_2) = _
  dsimp only [hostOps0]
  after_results_simp

/-! ## The second stretch: `1/√degree` or zero -/

set_option maxHeartbeats 4000000 in
/-- The second stretch, from any contents `V`: it selects between the reciprocal root and the zero it is handed. -/
theorem dinv_stretch (V : Valuation τ sig (Elt Ideal)) : StableHlo.after hostOps0_1 V (Proc.devRef .tc main_v14)
    = select (V (Proc.devRef .tc main_v12)) (V (Proc.devRef .tc main_v13))
        (broadcastInDim S100000 ![] Facts₀.bcast_S_S100000 (id (V (Proc.devRef .tc main_cst_2)))) := by
  dsimp only [hostOps0_1]
  after_results_simp
  rfl

theorem at2_v14 : W2 m ρ c (Proc.devRef .tc main_v14) = Net.dinvOf (Net.dstOf (m ((c.tc : Thread nD τ).loc main_arg7))) := by
  show StableHlo.after hostOps0_1 (W1 m ρ c) (Proc.devRef .tc main_v14) = _
  rw [dinv_stretch, at1_v12, at1_v13, at1_cst_2]
  rfl

/-- The second and third stretch leave the sources and destinations alone. -/
theorem at2_v3 : W2 m ρ c (Proc.devRef .tc main_v3) = Net.srcOf (m ((c.tc : Thread nD τ).loc main_arg7)) :=
  (by host_keeps : W2 m ρ c (Proc.devRef .tc main_v3) = W1 m ρ c (Proc.devRef .tc main_v3)).trans (at1_v3 m ρ c)
theorem at2_v6 : W2 m ρ c (Proc.devRef .tc main_v6) = Net.dstOf (m ((c.tc : Thread nD τ).loc main_arg7)) :=
  (by host_keeps : W2 m ρ c (Proc.devRef .tc main_v6) = W1 m ρ c (Proc.devRef .tc main_v6)).trans (at1_v6 m ρ c)
theorem at3_v3 : W3 m ρ c (Proc.devRef .tc main_v3) = Net.srcOf (m ((c.tc : Thread nD τ).loc main_arg7)) :=
  (by host_keeps : W3 m ρ c (Proc.devRef .tc main_v3) = W2 m ρ c (Proc.devRef .tc main_v3)).trans (at2_v3 m ρ c)
theorem at3_v6 : W3 m ρ c (Proc.devRef .tc main_v6) = Net.dstOf (m ((c.tc : Thread nD τ).loc main_arg7)) :=
  (by host_keeps : W3 m ρ c (Proc.devRef .tc main_v6) = W2 m ρ c (Proc.devRef .tc main_v6)).trans (at2_v6 m ρ c)

/-! ## The third stretch: the edges' normalisation -/

set_option maxHeartbeats 4000000 in
/-- The third stretch, from any contents `V`: each edge's normalisation is the product of what `main_v14` holds at the
    edge's source and at its destination. -/
theorem norm_stretch (V : Valuation τ sig (Elt Ideal)) : StableHlo.after hostOps0_2 V (Proc.devRef .tc main_v29)
    = Net.normFrom (V (Proc.devRef .tc main_v14)) (V (Proc.devRef .tc main_v3)) (V (Proc.devRef .tc main_v6)) := by
  dsimp only [hostOps0_2]
  after_results_simp
  rfl

theorem at3_v29 : W3 m ρ c (Proc.devRef .tc main_v29) = Net.normOf (Net.srcOf (m ((c.tc : Thread nD τ).loc main_arg7))) (Net.dstOf (m ((c.tc : Thread nD τ).loc main_arg7))) := by
  show StableHlo.after hostOps0_2 (W2 m ρ c) (Proc.devRef .tc main_v29) = _
  rw [norm_stretch, at2_v14, at2_v3, at2_v6]
  rfl

end Cert.KernelIdeal.RunValue

end
-- ==== Proof.KernelValue.lean ====
import proofs.«148743_j730144441189_1_alg».proof.Proof.KernelRun
import proofs.«148743_j730144441189_1_alg».proof.Proof.Keeps
import proofs.«148743_j730144441189_1_alg».proof.Proof.Stages
import proofs.«148743_j730144441189_1_alg».proof.Proof.Edges

/-!
# The kernel program's result is the network function

The stages of `Stages`, chained from the last boundary back to the third, over the buffers that `Keeps` carries across
the boundaries and the edge list and normalisation of `Edges`: the result buffer ends holding the three layers
(`Net.net`) of the launched arguments. The run of `KernelRun` is then re-posted at that function.
-/

set_option maxRecDepth 16384

noncomputable section

namespace Cert.KernelIdeal.RunValue

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- At the end of the run the result buffer holds the network function of the launched arguments. -/
theorem value (c : Dev nD) : W12 m ρ c (Proc.devRef .tc main_v77)
    = Net.net (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  rw [at12_v77, at11_v75, at11_v76, at10_v62, at9_v61, at8_v59, at8_v60, at7_v46, at6_v45, at5_v43, at5_v44, at4_v30]
  rw [keep_v3_10_7, keep_v6_10_7, keep_v29_10_7, keep_v3_7_4, keep_v6_7_4, keep_v29_7_4, keep_v3_4_3, keep_v6_4_3, keep_v29_4_3]
  rw [at3_v3, at3_v6, at3_v29]
  rw [keep_arg6_10_0, keep_arg5_9_0, keep_arg4_7_0, keep_arg3_6_0, keep_arg2_4_0, keep_arg0_3_0, keep_arg1_3_0]
  rfl

/-- Every weakly fair execution of the kernel program terminates without a fault, with the result buffer at the network
    function of the launched arguments and the arguments unchanged. -/
theorem run : θ_run defs (onTc (τ := τ) (main (F := Ideal))) ⟨m, fun _ => 0, ρ⟩ (fun r => ∀ c : Dev nD,
      r.2.mem ((c.tc : Thread nD τ).loc main_v77)
        = Net.net (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (run_result m ρ)

end Cert.KernelIdeal.RunValue

end
-- ==== Proof.RefLayer.lean ====
import proofs.«148743_j730144441189_1_alg».proof.Proof.Gen.ReferenceIdeal
import proofs.«148743_j730144441189_1_alg».proof.Proof.Net
import proofs.«148743_j730144441189_1_alg».proof.Proof.LibPlainDot
import Idealize.ShloMosaic.Lib.Pipeline.Value

/-!
# The reference's result is the network function

The reference program is host operations only: per layer a `dot_general`, the edge stage, the bias broadcast to every
row and added, and the maximum with zero. Its run's composed term is three such layers over the edge list and the
normalisation computed from the edge table (`refNet`, equal to the term by unfolding alone). A layer as the reference
spells it is the layer of `Cert.KernelIdeal.Net`: the `dot_general` at an entry is the plain sum over `k` of
`h (p, k) · w (k, q)`, and the bias broadcast to all rows, read at `(p, q)`, is entry `q` of the bias — which is also what
the bias laid out as one row holds at `(0, q)`.
-/

set_option maxRecDepth 16384

noncomputable section

namespace Cert.ReferenceIdeal.RefValue

open Cert.ReferenceIdeal Cert.ReferenceIdeal.Facts₀ Idealize.ShloMosaic Idealize.ShloMosaic.TcCoe Idealize.ShloMosaic.ValueIdx Idealize.SL.Sem
open Cert.KernelIdeal.Net (srcOf dstOf normOf aggregate layer net)

/-- One layer as the reference spells it. -/
def refLayer (s d : IVec S1100000 32) (n : FVec Ideal S1100000 .f32) (h : FVec Ideal S100000x64 .f32) (w : FVec Ideal S64x64 .f32)
    (b : FVec Ideal S64 .f32) : FVec Ideal S100000x64 .f32 :=
  maximumf (addf (aggregate s d n (Host.dotGeneral dot_S100000x64_S64x64_S100000x64_1_0_0_1_n_n none h w))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The three layers as the reference spells them. -/
def refNet (x : FVec Ideal S100000x64 .f32) (w1 : FVec Ideal S64x64 .f32) (b1 : FVec Ideal S64 .f32) (w2 : FVec Ideal S64x64 .f32)
    (b2 : FVec Ideal S64 .f32) (w3 : FVec Ideal S64x64 .f32) (b3 : FVec Ideal S64 .f32) (e : IVec S2x1000000 32) : FVec Ideal S100000x64 .f32 :=
  refLayer (srcOf e) (dstOf e) (normOf (srcOf e) (dstOf e))
    (refLayer (srcOf e) (dstOf e) (normOf (srcOf e) (dstOf e))
      (refLayer (srcOf e) (dstOf e) (normOf (srcOf e) (dstOf e)) x w1 b1) w2 b2) w3 b3

/-- The host's product of the features with a weight matrix is the dense map, entry by entry. -/
theorem dot_eq_dense (h : FVec Ideal S100000x64 .f32) (w : FVec Ideal S64x64 .f32) :
    Host.dotGeneral dot_S100000x64_S64x64_S100000x64_1_0_0_1_n_n none h w = Cert.Gcn.dense h w := by
  funext j
  obtain ⟨p, q, rfl⟩ : ∃ (p : Fin 100000) (q : Fin 64), j = ix2 p q := ⟨j 0, j 1, eq_ix2 j⟩
  exact Cert.LibPlainDot.dotGeneral_apply dot_S100000x64_S64x64_S100000x64_1_0_0_1_n_n ⟨rfl, rfl, rfl, rfl, rfl, rfl⟩ none .single h w p q

/-- The bias broadcast to every row, read at `(p, q)`, is its entry `q`. -/
theorem bias_rows_apply (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  rw [broadcastInDim_apply _ _ _ (ix2 p q) (ix2 (0 : Fin 1) q) (by intro a; match a with | ⟨0, _⟩ => rfl | ⟨1, _⟩ => rfl)]
  rw [broadcastInDim_apply _ _ _ (ix2 (0 : Fin 1) q) (ix1 q) (by intro a; match a with | ⟨0, _⟩ => rfl)]

/-- The bias laid out as one row of 64, read at `(0, q)`, is its entry `q`. -/
theorem bias_row_apply (b : FVec Ideal S64 .f32) (hc : S64.ShapeCasts S1x64) (q : Fin 64) :
    shapeCast S1x64 b hc (ix2 (0 : Fin 1) q) = b (ix1 q) := by
  refine shapeCast_apply b hc (ix2 (0 : Fin 1) q) (ix1 q) ?_
  rw [Shape.rowMajor_val_one, Shape.rowMajor_val_two]
  show q.val = 0 * 64 + q.val
  omega

/-- The bias added to every row and the maximum with zero, as the reference spells them, are the bias-and-positive-part
    of the array and the bias laid out as one row — for ANY array `a`. -/
theorem bias_max_eq (a : FVec Ideal S100000x64 .f32) (b : FVec Ideal S64 .f32) (hc : S64.ShapeCasts S1x64) :
    maximumf (addf a (broadcastInDim S100000x64 ![0, 1] bcast_S1x64_S100000x64_0_1 (broadcastInDim S1x64 ![1] bcast_S64_S1x64_1 b)))
      (broadcastInDim S100000x64 ![] bcast_S_S100000x64 (constant S_ .f32 0x00000000#32))
    = Cert.Gcn.biasRelu a (shapeCast S1x64 b hc) := by
  funext j
  obtain ⟨p, q, rfl⟩ : ∃ (p : Fin 100000) (q : Fin 64), j = ix2 p q := ⟨j 0, j 1, eq_ix2 j⟩
  show max (a (ix2 p q)
        + broadcastInDim S100000x64 ![0, 1] bcast_S1x64_S100000x64_0_1 (broadcastInDim S1x64 ![1] bcast_S64_S1x64_1 b) (ix2 p q))
      (Ideal.ofBits .f32 0x00000000#32)
    = max (a (ix2 p q) + shapeCast S1x64 b hc (ix2 (0 : Fin 1) q)) (Ideal.ofBits .f32 0x00000000#32)
  rw [bias_rows_apply, bias_row_apply]

/-- A layer as the reference spells it is the layer of the network function. -/
theorem refLayer_eq (s d : IVec S1100000 32) (n : FVec Ideal S1100000 .f32) (h : FVec Ideal S100000x64 .f32) (w : FVec Ideal S64x64 .f32)
    (b : FVec Ideal S64 .f32) : refLayer s d n h w b = layer s d n h w b := by
  unfold refLayer layer
  rw [dot_eq_dense]
  exact bias_max_eq _ _ _

/-- The three layers as the reference spells them are the network function. -/
theorem refNet_eq (x : FVec Ideal S100000x64 .f32) (w1 : FVec Ideal S64x64 .f32) (b1 : FVec Ideal S64 .f32) (w2 : FVec Ideal S64x64 .f32)
    (b2 : FVec Ideal S64 .f32) (w3 : FVec Ideal S64x64 .f32) (b3 : FVec Ideal S64 .f32) (e : IVec S2x1000000 32) :
    refNet x w1 b1 w2 b2 w3 b3 e = net x w1 b1 w2 b2 w3 b3 e := by
  unfold refNet net
  rw [refLayer_eq, refLayer_eq, refLayer_eq]

end Cert.ReferenceIdeal.RefValue

end
-- ==== Proof.RefTerm.lean ====
import proofs.«148743_j730144441189_1_alg».proof.Proof.RefRun
import proofs.«148743_j730144441189_1_alg».proof.Proof.RefLayer

/-!
# The reference run's result is the network function

The reference run states its result as one composed term of the launched arguments. That term is three layers as the
reference spells them (`refNet`) — it unfolds to them, nothing else — and those are the layers of the network function
(`refNet_eq`).
-/

set_option maxRecDepth 16384

noncomputable section

namespace Cert.ReferenceIdeal.RefValue

open Cert.ReferenceIdeal Cert.ReferenceIdeal.Facts₀ Idealize.ShloMosaic Idealize.ShloMosaic.TcCoe Idealize.SL.Sem
open Cert.KernelIdeal.Net (net)

set_option maxHeartbeats 4000000 in
/-- The reference run's composed term is the three layers as the reference spells them, of the launched arguments:
    the term unfolds to them. -/
theorem res_eq_refNet (m : (ℓ : Loc nD τ sig) → Buf (Elt Ideal) ℓ) (c : Dev nD) :
    Cert.ReferenceIdeal.ValueP.res_main_v83 (F := Ideal) m c
      = refNet (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v83
  rfl

/-- The reference run's result is the network function of the launched arguments. -/
theorem res_eq_net (m : (ℓ : Loc nD τ sig) → Buf (Elt Ideal) ℓ) (c : Dev nD) :
    Cert.ReferenceIdeal.ValueP.res_main_v83 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) :=
  (res_eq_refNet m c).trans (refNet_eq _ _ _ _ _ _ _ _)

end Cert.ReferenceIdeal.RefValue

end
-- ==== Proof.lean ====
/-
  The certificate's claims.

  The kernel program is three graph-convolution layers whose dense map and whose bias-and-positive-part run in six
  pipelined regions over row blocks of 10000 nodes, with the edge stage between them on the host; the reference is
  the same three layers on the host only. Over the extended reals both end with the result buffer at ONE function of the
  argument arrays, `Cert.KernelIdeal.Net.net`: a region's row blocks tile the array, so what the regions leave is the
  dense map and the bias-and-positive-part of whole arrays; the matrix unit's product into a zero accumulator and the
  host's `dot_general` are the same sum over `k`; a change of float format is the identity; the bias laid out as a row and
  the bias broadcast to every row read the same entry; and the edge stage is the same host operations on both sides. No
  law of arithmetic beyond that is used, so the finiteness of the inputs is never opened.

  The three frames: the two kernel programs' are the generated frames; the reference's is its run with the result dropped.
  The idealization rewrote nothing, so its claim is trivial.
-/
import proofs.«148743_j730144441189_1_alg».proof.Defs
import proofs.«148743_j730144441189_1_alg».proof.Proof.Gen.Kernel
import proofs.«148743_j730144441189_1_alg».proof.Proof.Gen.Kernel.Frame
import proofs.«148743_j730144441189_1_alg».proof.Proof.Gen.KernelIdeal
import proofs.«148743_j730144441189_1_alg».proof.Proof.Gen.KernelIdeal.Frame
import proofs.«148743_j730144441189_1_alg».proof.Proof.Gen.ReferenceIdeal
import proofs.«148743_j730144441189_1_alg».proof.Proof.Gen.Pre_finite_inputs
import proofs.«148743_j730144441189_1_alg».proof.Proof.KernelValue
import proofs.«148743_j730144441189_1_alg».proof.Proof.RefTerm

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs, from memories that agree on the arguments, end with the result at the network function of the
    kernel program's launched arguments. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq_net m' c, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
